-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S1024x1024 : Shape := ⟨2, ![1024, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S256x1024 .f32) (main_arg1 : FVec F S1024x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S256x1024 : Shape := ⟨2, ![256, 1024]⟩
abbrev S1024x1024 : Shape := ⟨2, ![1024, 1024]⟩
abbrev S128x1024 : Shape := ⟨2, ![128, 1024]⟩
abbrev S1024x128 : Shape := ⟨2, ![1024, 128]⟩
abbrev S128x128 : Shape := ⟨2, ![128, 128]⟩
abbrev S128x128x1 : Shape := ⟨3, ![128, 128, 1]⟩
abbrev S1x128x128 : Shape := ⟨3, ![1, 128, 128]⟩
abbrev S128x128x128 : Shape := ⟨3, ![128, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S1024x128, .f32⟩
  | .local _ .vmem, ⟨3, _⟩ => ⟨S1024x128, .f32⟩
  | .local _ .vmem, ⟨4, _⟩ => ⟨S128x128, .f32⟩
  | .local _ .vmem, ⟨5, _⟩ => ⟨S128x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v4 : BitVec 32 := Scalar.muli arg5 c128_i32
  v4
def k0_off1 (k0_t1 : Fin k0_t1_loop.trips) : Fin 2 → Nat :=
  let c0_2 : Index := 0#32
  let c0_i32 : BitVec 32 := 0#32
  let c1_i32 : BitVec 32 := 1#32
  let arg5 : BitVec 32 := Scf.iv c0_i32 c1_i32 k0_t1
  let c128_i32 : BitVec 32 := 128#32
  let v4 : BitVec 32 := Scalar.muli arg5 c128_i32
  let v5 : BitVec 32 := v4
  let v6 : Index := Scalar.indexCast v5
  ![0, v6.toNat]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v4 : BitVec 32 := Scalar.muli arg5 c128_i32
  let v5 : BitVec 32 := v4
  let v8 : Index := Scalar.indexCast v5
  let c0_3 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  h_S128x128 : 0 < S128x128.numel
  shapeCasts_S128x128_S128x128x1 : S128x128.ShapeCasts S128x128x1
  shapeCasts_S128x128_S1x128x128 : S128x128.ShapeCasts S1x128x128
  broadcasts_S128x128x1_S128x128x128 : S128x128x1.Broadcasts S128x128x128
  broadcasts_S1x128x128_S128x128x128 : S1x128x128.Broadcasts S128x128x128
  reduces_S128x128x128_S128x128 : S128x128x128.Reduces [1] S128x128
  inb_S128x128_S128x128_0_0 : ∀ a, (![0, 0] : Fin 2 → Nat) a + S128x128.size a ≤ S128x128.size a
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x128.size a ≤ S128x1024.size a
  k0_off2_inb : ∀ k0_t1 : Fin k0_t1_loop.trips, ∀ a, (k0_off2 k0_t1) a + S128x128.size a ≤ S1024x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S256x1024.size a
  hwx0_0 : ∀ i : grid0.Coords, EltTy.bits .f32 = 32 ∨ (Rect.block (s := S256x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x1024.size a
  hwx0_1 : ∀ i : grid0.Coords, EltTy.bits .f32 = 32 ∨ (Rect.block (s := S1024x1024) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S256x1024.size a
  hwx0_2 : ∀ i : grid0.Coords, EltTy.bits .f32 = 32 ∨ (Rect.block (s := S256x1024) S128x128.size (cc0_transform_2 i) (hinb0_2 i)).WholeWords (EltTy.packing .f32)

variable [Facts₀]

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x1024 : Shape := ⟨2, ![256, 1024]⟩
abbrev S1024x1024 : Shape := ⟨2, ![1024, 1024]⟩
abbrev S256x1024x1 : Shape := ⟨3, ![256, 1024, 1]⟩
abbrev S1x1024x1024 : Shape := ⟨3, ![1, 1024, 1024]⟩
abbrev S256x1024x1024 : Shape := ⟨3, ![256, 1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024x1, .f32⟩
  | .hbm, ⟨3, _⟩ => ⟨S1x1024x1024, .f32⟩
  | .hbm, ⟨4, _⟩ => ⟨S256x1024x1024, .f32⟩
  | .hbm, ⟨5, _⟩ => ⟨S256x1024x1024, .f32⟩
  | .hbm, ⟨6, _⟩ => ⟨S256x1024x1024, .f32⟩
  | .hbm, ⟨7, _⟩ => ⟨S_, .f32⟩
  | .hbm, ⟨8, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S256x1024_S256x1024x1_0_1 : S256x1024.BroadcastsInDim S256x1024x1 (![0, 1] : Fin 2 → Fin S256x1024x1.rank)
  bcast_S1024x1024_S1x1024x1024_1_2 : S1024x1024.BroadcastsInDim S1x1024x1024 (![1, 2] : Fin 2 → Fin S1x1024x1024.rank)
  bcast_S256x1024x1_S256x1024x1024_0_1_2 : S256x1024x1.BroadcastsInDim S256x1024x1024 (![0, 1, 2] : Fin 3 → Fin S256x1024x1024.rank)
  bcast_S1x1024x1024_S256x1024x1024_0_1_2 : S1x1024x1024.BroadcastsInDim S256x1024x1024 (![0, 1, 2] : Fin 3 → Fin S256x1024x1024.rank)
  reducesTo_S256x1024x1024_S256x1024_d1 : S256x1024x1024.ReducesTo [1] S256x1024
  h_S_ : 0 < S_.numel

variable [Facts₀]

class Facts : Prop extends Facts₀ where

variable [Facts]
-- ==== Proof.TripValue.lean ====
/-
  What one grid point's body computes, as terms over the two input blocks — for any float type.
  The body carries a 128 x 128 accumulator through eight trips. Trip k loads columns 128 k … 128 k + 127 of the
  point's 128 x 1024 block of m and rows 128 k … 128 k + 127 of its 1024 x 128 block of w, and replaces the accumulator by
  the trip's payload of the old accumulator and the two loaded pieces (`trip_result`). After the loop the body stores the
  accumulator over the whole output block, so the block it leaves is the carried value after eight trips, started from
  the body's initial vector (`block_eq`).
-/
import proofs.«134610_j28183575396611_2_alg».proof.Proof.Gen.KernelIdeal.Frame
import Idealize.ShloMosaic.Lib.WholeRead

set_option maxRecDepth 16384

noncomputable section

namespace Cert.KernelIdeal.PointValue

open Cert.KernelIdeal Cert.KernelIdeal.Gen Idealize.ShloMosaic Idealize.ShloMosaic.TcCoe Idealize.SL.Sem

variable {F : FTy → Type} [FloatOps F]

/-- Trip `k` turns the carried accumulator `acc` into the trip's payload of `acc`, the 128 x 128 piece of the first
    staging buffer at the trip's column offset and the 128 x 128 piece of the second at the trip's row offset. -/
theorem trip_result (𝒱 : Variants) (c : Dev nD) (bd : Option 𝒱.V) (i : grid0.Coords)
    (arg2 : Memref sig .tc .vmem S128x1024 .f32) (harg2 : arg2.IsWhole) (arg3 : Memref sig .tc .vmem S1024x128 .f32) (harg3 : arg3.IsWhole)
    (arg4 : Memref sig .tc .vmem S128x128 .f32) (harg4 : arg4.IsWhole)
    (X_arg2 : BufTy.Contents (Elt F) arg2.view.ty) (X_arg3 : BufTy.Contents (Elt F) arg3.view.ty)
    (k : Fin k0_t1_loop.trips) (acc : FVec F S128x128 .f32) :
    tripR_k0_t1 (F := F) 𝒱 c bd i arg2 harg2 arg3 harg3 arg4 harg4 X_arg2 X_arg3 k acc
      = k0_pay2 acc
          (View.readAt (Elt F) arg2.view (Rect.unit (s := S128x1024) (k0_off1 k) S128x128.size (k0_off1_inb k)).toLoadRect X_arg2)
          (View.readAt (Elt F) arg3.view (Rect.unit (s := S1024x128) (k0_off2 k) S128x128.size (k0_off2_inb k)).toLoadRect X_arg3) := by
  unfold tripR_k0_t1 trip_k0_t1
  rfl

/-- The loop makes eight trips. -/
theorem trips_eq : k0_t1_loop.trips = 8 := by decide

/-- The output block the body leaves at a point, from input blocks `x0` and `x1` held in whole staging buffers: the carried
    value after the loop's eight trips, started from the body's initial vector. (The body's one store writes the loop's
    result over the whole block, so reading the block back gives that result.) -/
theorem block_eq (c : Dev nD) (i : grid0.Coords)
    (arg2 : Memref sig .tc .vmem S128x1024 .f32) (harg2 : arg2.IsWhole) (arg3 : Memref sig .tc .vmem S1024x128 .f32) (harg3 : arg3.IsWhole)
    (arg4 : Memref sig .tc .vmem S128x128 .f32) (harg4 : arg4.IsWhole)
    (x0 : Vec F S128x1024 .f32) (x1 : Vec F S1024x128 .f32) :
    out0_A_2 (F := F) c i arg2 harg2 arg3 harg3 arg4 harg4 x0 x1
      = st_k0_t1 (F := F) Variants.none c none i arg2 harg2 arg3 harg3 arg4 harg4 (harg2.unread x0) (harg3.unread x1) k0_pay1 8 := by
  have hz : (![0, 0] : Fin 2 → ℕ) = fun _ => 0 := funext fun a => by
    match a with
    | ⟨0, _⟩ => rfl
    | ⟨1, _⟩ => rfl
  unfold out0_A_2
  rw [View.read_writes_eq_canon _ _ _ (cover0_A_2 c i arg2 harg2 arg3 harg3 arg4 harg4 x0 x1)]
  unfold kernelRun0_A
  dsimp only
  rw [View.canon_unit_zero hz]
  rfl

end Cert.KernelIdeal.PointValue

end
-- ==== Proof.MaxMinSpec.lean ====
/-
  The max-min composition of a 256 x 1024 array `m` with a 1024 x 1024 array `w`, on the extended reals:
  entry (r, o) is the maximum over i < 1024 of min (m r i) (w i o), taken as a fold of `max` from a start value `b`
  (both programs start from the same word, so `b` stays a variable here and is never evaluated).
  The one law the certificate needs: a fold of `max` over 1024 positions is reached by eight steps, step k joining
  the running value with the fold over the 128 positions 128 k, …, 128 k + 127 — a maximum does not care how its
  index set is cut into consecutive chunks, nor that every chunk starts again from `b` (`max` is idempotent).
  No finiteness is used: the argument is order theory only (what is below a fold of `max`).
-/
import Idealize.ShloMosaic.PureOps.Ideal
import Idealize.ShloMosaic.Lib.ValueIdx

noncomputable section

namespace Cert.MaxMin

open Idealize.ShloMosaic Idealize.ShloMosaic.ValueIdx

/-- Entry `j = (r, o)` of the composition: the fold of `max` from `b` over `i < 1024` of `min (m r i) (w i o)`. -/
def maxMin (b : EReal) (m : (⟨2, ![256, 1024]⟩ : Shape).Idx → EReal) (w : (⟨2, ![1024, 1024]⟩ : Shape).Idx → EReal) :
    (⟨2, ![256, 1024]⟩ : Shape).Idx → EReal :=
  fun j => (Finset.univ : Finset (Fin 1024)).fold max b fun i => min (m (ix2 (j 0) i)) (w (ix2 i (j 1)))

/-- Position `l` of chunk `k`, among the 1024 positions: `128 k + l`. -/
def chunkIx (k : ℕ) (hk : k < 8) (l : Fin 128) : Fin 1024 := ⟨128 * k + l.val, by omega⟩

theorem chunkIx_val (k : ℕ) (hk : k < 8) (l : Fin 128) : (chunkIx k hk l).val = 128 * k + l.val := rfl

/-- A value `A n` that starts at `b` and at step `k < 8` is joined with the fold of `max` (from `b` again) over
    chunk `k` of `g` is, after eight steps, the fold of `max` from `b` over all of `g`. Proof: by induction on `n ≤ 8`,
    the upper bounds of `A n` are exactly the upper bounds of `b` and of `g i` for `i < 128 n`. -/
theorem fold_max_chunks (b : EReal) (g : Fin 1024 → EReal) (A : ℕ → EReal) (h0 : A 0 = b)
    (hS : ∀ (k : ℕ) (hk : k < 8), A (k + 1)
      = max (A k) ((Finset.univ : Finset (Fin 128)).fold max b fun l => g (chunkIx k hk l))) :
    A 8 = (Finset.univ : Finset (Fin 1024)).fold max b g := by
  have key : ∀ n, n ≤ 8 → ∀ c, A n ≤ c ↔ b ≤ c ∧ ∀ i : Fin 1024, i.val < 128 * n → g i ≤ c := by
    intro n
    induction n with
    | zero =>
      intro _ c
      rw [h0]
      exact ⟨fun h => ⟨h, fun i hi => absurd hi (by omega)⟩, fun h => h.1⟩
    | succ n ih =>
      intro hn c
      have hn8 : n < 8 := by omega
      rw [hS n hn8, max_le_iff, ih (by omega) c, Finset.fold_max_le]
      constructor
      · rintro ⟨⟨hb, h1⟩, -, h2⟩
        refine ⟨hb, fun i hi => ?_⟩
        by_cases hlt : i.val < 128 * n
        · exact h1 i hlt
        · have h3 := h2 ⟨i.val - 128 * n, by omega⟩ (Finset.mem_univ _)
          have e : chunkIx n hn8 ⟨i.val - 128 * n, by omega⟩ = i := Fin.ext (by
            rw [chunkIx_val]; show 128 * n + (i.val - 128 * n) = i.val; omega)
          rwa [e] at h3
      · rintro ⟨hb, h⟩
        exact ⟨⟨hb, fun i hi => h i (by omega)⟩, hb, fun l _ => h _ (by rw [chunkIx_val]; omega)⟩
  refine eq_of_forall_ge_iff fun c => ?_
  rw [key 8 le_rfl c, Finset.fold_max_le]
  exact ⟨fun ⟨hb, h⟩ => ⟨hb, fun i _ => h i (by omega)⟩, fun ⟨hb, h⟩ => ⟨hb, fun i _ => h i (Finset.mem_univ _)⟩⟩

end Cert.MaxMin

end
-- ==== Proof.LibCubeLayout.lean ====
/-
  Two matrices laid out as faces of a cube, read at an index given by coordinates.
  An outer combination `f (x i j) (y j k)` of an `[a, b]` matrix `x` and a `[b, c]` matrix `y` is computed on vectors by
  giving `x` a trailing unit axis (`[a, b] → [a, b, 1]`) and `y` a leading one (`[b, c] → [1, b, c]`), broadcasting both
  to `[a, b, c]`, combining pointwise, and reducing over the middle axis. The lemmas here read each layout step at
  `(i, j, k)`, general in the extents and the element type:
  • `shapeCast_ab_ab1_apply`: the cast `[a, b] → [a, b, 1]` at `(i, j, u)` is the matrix at `(i, j)`;
  • `broadcastTo_ab1_abc_apply`: `[a, b, 1] → [a, b, c]` at `(i, j, k)` is the operand at `(i, j, 0)`;
  • `broadcastTo_1bc_abc_apply`: `[1, b, c] → [a, b, c]` at `(i, j, k)` is the operand at `(0, j, k)`;
  • `lift_mid_abc`: reducing `[a, b, c]` over its middle axis, the source index over the result index `(i, k)` with
    coordinate `j` on the reduced axis is `(i, j, k)`.
  (The leading-unit cast `[b, c] → [1, b, c]` is the library's `shapeCast_ab_1ab_apply`.)
-/
import Idealize.ShloMosaic.Lib.Pipeline.Value
import Idealize.ShloMosaic.Lib.ValueIdx
import Idealize.ShloMosaic.PureOps.Reduce

namespace Cert.LibCubeLayout

open Idealize.ShloMosaic Idealize.ShloMosaic.ValueIdx

variable {α : Type}

/-- An `[a, b]` array cast to `[a, b, 1]` reads, at `(i, j, u)`, the operand at `(i, j)`: the two indices have the same
    row-major position, the unit axis contributing nothing. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- Reducing `[a, b, c]` over its middle axis: the source index over the result index `(i, k)` whose coordinate on the
    reduced axis is `j` is `(i, j, k)`. -/
theorem lift_mid_abc {a b c : ℕ} (h : (⟨3, ![a, b, c]⟩ : Shape).Reduces [1] ⟨2, ![a, c]⟩) (i : Fin a) (k : Fin c)
    (j : Fin b) : h.lift (ix2 i k) j = ix3 i j k := by
  funext ax
  apply Fin.ext
  match ax with
  | ⟨0, _⟩ => rfl
  | ⟨1, _⟩ => rfl
  | ⟨2, _⟩ => rfl

end Cert.LibCubeLayout
-- ==== Proof.BlockValue.lean ====
/-
  The output block of one grid point on the extended reals.
  From a 128 x 1024 block `x0` of m and a 1024 x 128 block `x1` of w, the body leaves at (p, q) the maximum over all
  i < 1024 of min (x0 p i) (x1 i q), folded from the start value the body's −∞ word denotes (`block_apply`).
  Trip k's payload at (p, q) is the old accumulator joined with the maximum over l < 128 of
  min (v7 p l) (v9 l q), where v7, v9 are the trip's two loaded pieces (`pay2_apply`): the pieces are cast to the faces
  [128, 128, 1] and [1, 128, 128] of a cube, broadcast, combined by a pointwise minimum, and the cube is
  max-reduced over its middle axis. The pieces are columns / rows 128 k + l of the blocks (`idx_m`, `idx_w`), so the
  eight trips are the eight chunks of the law `fold_max_chunks`.
-/
import proofs.«134610_j28183575396611_2_alg».proof.Proof.TripValue
import proofs.«134610_j28183575396611_2_alg».proof.Proof.MaxMinSpec
import proofs.«134610_j28183575396611_2_alg».proof.Proof.LibCubeLayout
import Idealize.ShloMosaic.PureOps.Ideal.Laws
import Idealize.ShloMosaic.Lib.ValueLayout

set_option maxRecDepth 16384

noncomputable section

namespace Cert.KernelIdeal.PointValue

open Cert.KernelIdeal Cert.KernelIdeal.Gen Idealize.ShloMosaic Idealize.ShloMosaic.TcCoe Idealize.SL.Sem
open Idealize.ShloMosaic.ValueIdx Cert.MaxMin Cert.LibCubeLayout

/-- A trip's payload at (p, q): the old accumulator there, joined with the maximum over the 128 positions `l` of the
    trip's chunk of `min (v7 p l) (v9 l q)`, that maximum folded from the value of the reduction's −∞ word. -/
theorem pay2_apply (acc v7 v9 : FVec Ideal S128x128 .f32) (p q : Fin 128) :
    k0_pay2 (F := Ideal) acc v7 v9 (ix2 p q)
      = max (acc (ix2 p q)) ((Finset.univ : Finset (Fin 128)).fold max (Ideal.ofBits .f32 0xFF800000#32)
          fun l => min (v7 (ix2 p l)) (v9 (ix2 l q))) := by
  unfold k0_pay2
  refine congrArg (max (acc (ix2 p q))) ?_
  refine (Ideal.multiReduction_maximumf_single _ _ reduces_S128x128x128_S128x128 _ _ (ix2 p q)).trans ?_
  refine congrArg (fun f => Finset.fold max (Ideal.ofBits .f32 0xFF800000#32) f (Finset.univ : Finset (Fin 128))) (funext ?_)
  intro (l : Fin 128)
  show min (broadcastTo S128x128x128 (shapeCast S128x128x1 v7 shapeCasts_S128x128_S128x128x1) broadcasts_S128x128x1_S128x128x128
        (reduces_S128x128x128_S128x128.lift (ix2 p q) l))
      (broadcastTo S128x128x128 (shapeCast S1x128x128 v9 shapeCasts_S128x128_S1x128x128) broadcasts_S1x128x128_S128x128x128
        (reduces_S128x128x128_S128x128.lift (ix2 p q) l)) = _
  rw [lift_mid_abc reduces_S128x128x128_S128x128 p q l, broadcastTo_ab1_abc_apply, shapeCast_ab_ab1_apply,
    broadcastTo_1bc_abc_apply, shapeCast_ab_1ab_apply]

/-- Trip `k`'s load from the block of m, at (p, l), reads the block at (p, 128 k + l). -/
theorem idx_m (k : ℕ) (hk : k < 8) (hk' : k < k0_t1_loop.trips) (p l : Fin 128) :
    (Rect.unit (s := S128x1024) (k0_off1 ⟨k, hk'⟩) S128x128.size (k0_off1_inb ⟨k, hk'⟩)).toLoadRect.idx (ix2 p l)
      = ix2 p (chunkIx k hk l) := by
  funext a
  apply Fin.ext
  rw [LoadRect.idx_apply]
  show k0_off1 ⟨k, hk'⟩ a + 1 * (ix2 p l a).val = _
  rw [k0_off1_eq]
  match a with
  | ⟨0, _⟩ => show 0 + 1 * p.val = p.val; omega
  | ⟨1, _⟩ => show 128 * k + 1 * l.val = 128 * k + l.val; omega

/-- Trip `k`'s load from the block of w, at (l, q), reads the block at (128 k + l, q). -/
theorem idx_w (k : ℕ) (hk : k < 8) (hk' : k < k0_t1_loop.trips) (l q : Fin 128) :
    (Rect.unit (s := S1024x128) (k0_off2 ⟨k, hk'⟩) S128x128.size (k0_off2_inb ⟨k, hk'⟩)).toLoadRect.idx (ix2 l q)
      = ix2 (chunkIx k hk l) q := by
  funext a
  apply Fin.ext
  rw [LoadRect.idx_apply]
  show k0_off2 ⟨k, hk'⟩ a + 1 * (ix2 l q a).val = _
  rw [k0_off2_eq]
  match a with
  | ⟨0, _⟩ => show 128 * k + 1 * l.val = 128 * k + l.val; omega
  | ⟨1, _⟩ => show 0 + 1 * q.val = q.val; omega

/-- The block a point's body leaves, at (p, q): the maximum over all 1024 positions `i` of `min (x0 p i) (x1 i q)`, folded
    from the value of the body's −∞ word — the eight trips are the eight chunks of `fold_max_chunks`. -/
theorem block_apply (c : Dev nD) (i : grid0.Coords)
    (arg2 : Memref sig .tc .vmem S128x1024 .f32) (harg2 : arg2.IsWhole) (arg3 : Memref sig .tc .vmem S1024x128 .f32) (harg3 : arg3.IsWhole)
    (arg4 : Memref sig .tc .vmem S128x128 .f32) (harg4 : arg4.IsWhole)
    (x0 : Vec Ideal S128x1024 .f32) (x1 : Vec Ideal S1024x128 .f32) (p q : Fin 128) :
    out0_A_2 (F := Ideal) c i arg2 harg2 arg3 harg3 arg4 harg4 x0 x1 (ix2 p q)
      = (Finset.univ : Finset (Fin 1024)).fold max (Ideal.ofBits .f32 0xFF800000#32)
          fun i' => min (x0 (ix2 p i')) (x1 (ix2 i' q)) := by
  rw [block_eq]
  refine fold_max_chunks _ (fun i' => min (x0 (ix2 p i')) (x1 (ix2 i' q)))
    (fun n => st_k0_t1 (F := Ideal) Variants.none c none i arg2 harg2 arg3 harg3 arg4 harg4 (harg2.unread x0) (harg3.unread x1)
      k0_pay1 n (ix2 p q)) rfl ?_
  intro k hk
  have hk' : k < k0_t1_loop.trips := by rw [trips_eq]; exact hk
  show st_k0_t1 (F := Ideal) Variants.none c none i arg2 harg2 arg3 harg3 arg4 harg4 (harg2.unread x0) (harg3.unread x1)
      k0_pay1 ((⟨k, hk'⟩ : Fin k0_t1_loop.trips).val + 1) (ix2 p q) = _
  rw [st_k0_t1_succ, trip_result, pay2_apply]
  refine congrArg (max _) (congrArg (fun f => Finset.fold max (Ideal.ofBits .f32 0xFF800000#32) f (Finset.univ : Finset (Fin 128)))
    (funext fun l => ?_))
  rw [harg2.readAt_unread, harg3.readAt_unread, idx_m k hk hk' p l, idx_w k hk hk' l q]

end Cert.KernelIdeal.PointValue

end
-- ==== Proof.ArrayValue.lean ====
/-
  From the sixteen output blocks to the whole output array, on the extended reals.
  Grid point t = (t0, t1) reads rows 128 t0 … 128 t0 + 127 of m (all 1024 columns), columns 128 t1 … 128 t1 + 127 of w
  (all 1024 rows), and writes block (t0, t1) of the 256 x 1024 output (`idx_facts`). By `block_apply` the block it
  writes holds, at (p, q), the maximum over i of min (m (128 t0 + p) i) (w i (128 t1 + q)) — block (t0, t1) of the max-min
  composition of the two argument arrays (`flushed_eq`). The sixteen blocks tile the output (`cover`), so the output
  array ends at the composition (`final`), and the run of the idealized kernel ends with it there and the arguments
  unchanged (`run`).
-/
import proofs.«134610_j28183575396611_2_alg».proof.Proof.Gen.KernelIdeal.Value
import proofs.«134610_j28183575396611_2_alg».proof.Proof.BlockValue

set_option maxRecDepth 16384

noncomputable section

namespace Cert.KernelIdeal.ArrayValue

open Cert.KernelIdeal Cert.KernelIdeal.Gen Cert.KernelIdeal.Value Cert.KernelIdeal.PointValue
open Idealize.ShloMosaic Idealize.ShloMosaic.TcCoe Idealize.SL.Sem Idealize.ShloMosaic.ValueIdx Cert.MaxMin
open Idealize.ShloMosaic.Pipeline (Dat)

variable (m : (ℓ : Loc nD τ sig) → Buf (Elt Ideal) ℓ) (ρ : Dev nD → PrngReg)

/-- The value of the word both programs start their maxima from (the pattern of −∞); never evaluated. -/
abbrev start : EReal := Ideal.ofBits .f32 0xFF800000#32

/-- The printed index maps over the sixteen points: the block of m moves with the output block's row index and stays
    at column block 0; the block of w stays at row block 0 and moves with the output block's column index; the output's
    block indices range over 2 x 8. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 1 ∧ win0_2.index t (1 : Fin 2) ≤ 7 :=
  (by decide +kernel : ∀ t : Fin grid0.N, _)

/-- Every one of the 2 x 8 output blocks is some point's. -/
theorem idx_onto : ∀ (q0 : Fin 2) (q1 : Fin 8), ∃ t : Fin cfg0.N, win0_2.index t = ![q0.val, q1.val] :=
  (by decide +kernel : ∀ (q0 : Fin 2) (q1 : Fin 8), ∃ t : Fin grid0.N, win0_2.index t = ![q0.val, q1.val])

/-- WHAT POINT `t` WRITES BACK is block `t` of the max-min composition of the argument arrays. -/
theorem flushed_eq (c : Dev nD) (t : Fin cfg0.N) :
    (dats m 0 c).flushed 2 t
      = ((cfg0.win 2).blk t).view.read (Elt Ideal) (maxMin start (V m c main_arg0) (V m c main_arg1)) := by
  rw [flushed2_A]
  obtain ⟨e0, e1, e2, e3, -, -⟩ := idx_facts t
  funext y
  obtain ⟨p, q, rfl⟩ : ∃ (p q : Fin 128), y = ix2 p q := ⟨y 0, y 1, eq_ix2 y⟩
  show out0_A_2 c (grid0.coords t) (ms0_0 t) (hs0_0 t) (ms0_1 t) (hs0_1 t) (ms0_2 t) (hs0_2 t) (iblk m c 0 t) (iblk m c 1 t) (ix2 p q)
    = maxMin start (V m c main_arg0) (V m c main_arg1) (((cfg0.win 2).blk t).view.emb (ix2 p q))
  refine (block_apply c (grid0.coords t) (ms0_0 t) (hs0_0 t) (ms0_1 t) (hs0_1 t) (ms0_2 t) (hs0_2 t)
    (iblk m c 0 t) (iblk m c 1 t) p q).trans ?_
  refine congrArg (fun f => Finset.fold max start f (Finset.univ : Finset (Fin 1024))) (funext fun i' => ?_)
  have h0 : ((cfg0.win 0).blk t).view.emb (ix2 p i')
      = ix2 ((((cfg0.win 2).blk t).view.emb (ix2 p q)) 0) i' := by
    funext a; apply Fin.ext
    match a with
    | ⟨0, _⟩ => show win0_0.index t (0 : Fin 2) * 128 + 1 * p.val = win0_2.index t (0 : Fin 2) * 128 + 1 * p.val; rw [e0]
    | ⟨1, _⟩ => show win0_0.index t (1 : Fin 2) * 1024 + 1 * i'.val = i'.val; rw [e1]; omega
  have h1 : ((cfg0.win 1).blk t).view.emb (ix2 i' q)
      = ix2 i' ((((cfg0.win 2).blk t).view.emb (ix2 p q)) 1) := by
    funext a; apply Fin.ext
    match a with
    | ⟨0, _⟩ => show win0_1.index t (0 : Fin 2) * 1024 + 1 * i'.val = i'.val; rw [e2]; omega
    | ⟨1, _⟩ => show win0_1.index t (1 : Fin 2) * 128 + 1 * q.val = win0_2.index t (1 : Fin 2) * 128 + 1 * q.val; rw [e3]
  have hA : (iblk m c 0 t : S128x1024.Idx → EReal) (ix2 p i')
      = (V m c main_arg0 : S256x1024.Idx → EReal) (ix2 ((((cfg0.win 2).blk t).view.emb (ix2 p q)) 0) i') := by
    exact congrArg (V m c main_arg0 : S256x1024.Idx → EReal) h0
  have hB : (iblk m c 1 t : S1024x128.Idx → EReal) (ix2 i' q)
      = (V m c main_arg1 : S1024x1024.Idx → EReal) (ix2 i' ((((cfg0.win 2).blk t).view.emb (ix2 p q)) 1)) := by
    exact congrArg (V m c main_arg1 : S1024x1024.Idx → EReal) h1
  exact congrArg₂ (min : EReal → EReal → EReal) hA hB

/-- An index of the output array is in point `t`'s block iff each coordinate is in the block's range on its axis. -/
theorem mem_blk (t : Fin cfg0.N) (i : S256x1024.Idx) :
    i ∈ ((cfg0.win 2).blk t).view.set ↔ ∀ a : Fin 2, win0_2.index t a * S128x128.size a ≤ (i a).val
      ∧ (i a).val < win0_2.index t a * S128x128.size a + S128x128.size a := by
  show i ∈ ((View.whole main_v0).slice (win0_2.rect t)).set ↔ _
  rw [View.set_slice_whole, Rect.mem_set_unit]
  exact Iff.rfl

/-- The blocks tile the output: index (r, o) is in the block of the point with block indices (r / 128, o / 128). -/
theorem cover (i : S256x1024.Idx) :
    ∃ t : Fin cfg0.N, (cfg0.win 2).flush t = true ∧ i ∈ ((cfg0.win 2).blk t).view.set := by
  have hi0 : (i 0).val < 256 := (i 0).isLt
  have hi1 : (i 1).val < 1024 := (i 1).isLt
  obtain ⟨t, ht⟩ := idx_onto ⟨(i 0).val / 128, by omega⟩ ⟨(i 1).val / 128, by omega⟩
  have q0 : win0_2.index t (0 : Fin 2) = (i 0).val / 128 := congrFun ht 0
  have q1 : win0_2.index t (1 : Fin 2) = (i 1).val / 128 := congrFun ht 1
  refine ⟨t, flush0_2 t, ?_⟩
  rw [mem_blk]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 128 ≤ (i 1).val ∧ (i 1).val < win0_2.index t (1 : Fin 2) * 128 + 128
    omega

/-- THE OUTPUT ARRAY after the run is the max-min composition of the argument arrays. -/
theorem final (c : Dev nD) :
    (dats m 0 c).arrAt 2 cfg0.N
      = maxMin start (m ((c : Thread nD τ).loc main_arg0)) (m ((c : Thread nD τ).loc main_arg1)) :=
  (dats m 0 c).arrAt_eq_of_cover 2 (maxMin start (V m c main_arg0) (V m c main_arg1)) (fun t _ => flushed_eq m c t) cover

/-- The idealized kernel's run: every weakly fair execution ends with the output array at the composition of the
    argument arrays and the arguments unchanged. -/
theorem run : θ_run defs (onTc (τ := τ) (main (F := Ideal))) ⟨m, fun _ => 0, ρ⟩ fun r => ∀ c : Dev nD,
      r.2.mem ((c : Thread nD τ).loc main_v0)
        = maxMin start (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.RefValue.lean ====
/-
  The reference's result on the extended reals is the max-min composition of its two arguments.
  The reference broadcasts m to [256, 1024, 1] and on to the cube [256, 1024, 1024], w to [1, 1024, 1024] and on to the
  cube, takes the pointwise minimum, and max-reduces the cube over its middle axis from the −∞ word. Read at (r, o): the
  reduction is the fold of `max` from that word's value over the 1024 coordinates i of the middle axis, of the cube at
  (r, i, o); the minimum there is min (m r i) (w i o), each broadcast reading its operand at the coordinates it keeps.
-/
import proofs.«134610_j28183575396611_2_alg».proof.Proof.Gen.ReferenceIdeal.Read
import proofs.«134610_j28183575396611_2_alg».proof.Proof.MaxMinSpec
import proofs.«134610_j28183575396611_2_alg».proof.Proof.LibCubeLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Cert.MaxMin Cert.LibCubeLayout

/-- The shape fact that names the index the reduction inserts (the program states the host form of the same fact). -/
theorem reduces_mid : S256x1024x1024.Reduces [1] S256x1024 := by decide

/-- The reference's result, index by index, is the max-min composition of its arguments, folded from the value of
    the reference's −∞ word. -/
theorem result_eq (x0 : (⟨S256x1024, .f32⟩ : BufTy).Contents (Elt Ideal)) (x1 : (⟨S1024x1024, .f32⟩ : BufTy).Contents (Elt Ideal)) :
    val_main_v5 (F := Ideal) x0 x1 = maxMin (Ideal.ofBits .f32 0xFF800000#32) x0 x1 := by
  funext j
  obtain ⟨r, o, rfl⟩ : ∃ (r : Fin 256) (o : Fin 1024), j = ix2 r o := ⟨j 0, j 1, eq_ix2 j⟩
  unfold val_main_v5
  refine (Host.reduce_eq_fold_single FloatOps.maximumf _ _ reducesTo_S256x1024x1024_S256x1024_d1 reduces_mid h_S_ (ix2 r o)).trans ?_
  refine congrArg (fun f => Finset.fold max (Ideal.ofBits .f32 0xFF800000#32) f (Finset.univ : Finset (Fin 1024))) (funext ?_)
  intro (i : Fin 1024)
  show val_main_v4 (F := Ideal) x0 x1 (reduces_mid.lift (ix2 r o) i) = min (x0 (ix2 r i)) (x1 (ix2 i o))
  rw [lift_mid_abc reduces_mid r o i, val_main_v4_apply, val_main_v2_apply, val_main_v0_apply, val_main_v3_apply, val_main_v1_apply]
  have a0 : idx_main_v0 (idx_main_v2 (ix3 r i o)) = ix2 r i :=
    funext fun a => Fin.ext (by match a with | ⟨0, _⟩ => rfl | ⟨1, _⟩ => rfl)
  have a1 : idx_main_v1 (idx_main_v3 (ix3 r i o)) = ix2 i o :=
    funext fun a => Fin.ext (by match a with | ⟨0, _⟩ => rfl | ⟨1, _⟩ => rfl)
  rw [a0, a1]
  rfl

end Cert.ReferenceIdeal.RefValue

end
-- ==== Proof.lean ====
/-
  The max-min composition kernel against its reference, on the extended reals.

  Both programs compute, from m : [256, 1024] and w : [1024, 1024],
      out (r, o) = max over i < 1024 of min (m (r, i)) (w (i, o)),
  every maximum started from the same word, the pattern of −∞.
  • The reference broadcasts both arrays to the cube [256, 1024, 1024], takes the pointwise minimum and max-reduces
    the middle axis in one step (Proof/RefValue.lean).
  • The kernel runs on a 2 x 8 grid. Point (t0, t1) holds rows 128 t0 … of m and columns 128 t1 … of w, and computes its
    128 x 128 output block in eight trips of a loop: trip k takes columns / rows 128 k … 128 k + 127 of the two blocks,
    forms their 128-cube of minima, max-reduces its middle axis, and joins the result into an accumulator that starts at
    −∞ (Proof/TripValue.lean, Proof/BlockValue.lean). The sixteen blocks tile the output (Proof/ArrayValue.lean).
  The two agree because a maximum over 1024 positions is the same however the positions are cut into consecutive
  chunks of 128, and restarting every chunk from the common start value changes nothing, `max` being idempotent
  (Proof/MaxMinSpec.lean, `fold_max_chunks`). This is order theory on the extended reals and holds at the infinities
  too, so the precondition (finite inputs) is not used by the value claim.
  The idealization rewrote nothing, so there is nothing to preserve; the kernels' frames are the generated ones, the
  reference's frame is its generated run with the result dropped.
-/
import proofs.«134610_j28183575396611_2_alg».proof.Defs
import proofs.«134610_j28183575396611_2_alg».proof.Proof.Gen.Kernel
import proofs.«134610_j28183575396611_2_alg».proof.Proof.Gen.Kernel.Skeleton
import proofs.«134610_j28183575396611_2_alg».proof.Proof.Gen.Kernel.Loops
import proofs.«134610_j28183575396611_2_alg».proof.Proof.Gen.Kernel.Launch
import proofs.«134610_j28183575396611_2_alg».proof.Proof.Gen.Kernel.Points
import proofs.«134610_j28183575396611_2_alg».proof.Proof.Gen.Kernel.Frame
import proofs.«134610_j28183575396611_2_alg».proof.Proof.Gen.KernelIdeal
import proofs.«134610_j28183575396611_2_alg».proof.Proof.Gen.KernelIdeal.Skeleton
import proofs.«134610_j28183575396611_2_alg».proof.Proof.Gen.KernelIdeal.Loops
import proofs.«134610_j28183575396611_2_alg».proof.Proof.Gen.KernelIdeal.Launch
import proofs.«134610_j28183575396611_2_alg».proof.Proof.Gen.KernelIdeal.Points
import proofs.«134610_j28183575396611_2_alg».proof.Proof.Gen.KernelIdeal.Frame
import proofs.«134610_j28183575396611_2_alg».proof.Proof.Gen.ReferenceIdeal
import proofs.«134610_j28183575396611_2_alg».proof.Proof.Gen.KernelIdeal.Value
import proofs.«134610_j28183575396611_2_alg».proof.Proof.Gen.ReferenceIdeal.Run
import proofs.«134610_j28183575396611_2_alg».proof.Proof.Gen.ReferenceIdeal.Read
import proofs.«134610_j28183575396611_2_alg».proof.Proof.Gen.Pre_finite_inputs
import proofs.«134610_j28183575396611_2_alg».proof.Proof.ArrayValue
import proofs.«134610_j28183575396611_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on m and w both idealized programs end with the max-min composition of m and w in their
    result arrays: the kernel block by block and chunk by chunk (`ArrayValue.run`), the reference in one reduction
    (`RefValue.result_eq`). -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v5_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
